-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S8192x11008 : Shape := ⟨2, ![8192, 11008]⟩
abbrev S512x4096 : Shape := ⟨2, ![512, 4096]⟩
abbrev S256x4096 : Shape := ⟨2, ![256, 4096]⟩
abbrev S256x1 : Shape := ⟨2, ![256, 1]⟩
abbrev S512x256 : Shape := ⟨2, ![512, 256]⟩
abbrev S4x2048x11008 : Shape := ⟨3, ![4, 2048, 11008]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S11008x1, .f32⟩
  | .hbm, ⟨5, _⟩ => ⟨S8192x11008, .f32⟩
  | .hbm, ⟨6, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S512x256, .f32⟩
  | .local _ .vmem, ⟨7, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S11008_S11008x1 : S11008.ShapeCasts S11008x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  broadcasts_S256x1_S256x4096 : S256x1.Broadcasts S256x4096
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .f32 = 32 ∨ (Rect.block (s := S8192x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S_, .f32⟩
  | .hbm, ⟨5, _⟩ => ⟨S11008, .f32⟩
  | .hbm, ⟨6, _⟩ => ⟨S11008, .f32⟩
  | .hbm, ⟨7, _⟩ => ⟨S11008x1, .f32⟩
  | .hbm, ⟨8, _⟩ => ⟨S11008x4096, .f32⟩
  | .hbm, ⟨9, _⟩ => ⟨S11008x4096, .f32⟩
  | .hbm, ⟨10, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S11008 : S_.BroadcastsInDim S11008 (![] : Fin 0 → Fin S11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.DequantLinear.lean ====
/-
  The function both programs compute, stated once over the extended reals.

  A weight matrix is stored as integers `wq[o, k]` with one positive scale `mv[o]` per output row; the
  dequantized weight is `W[o, k] = wq[o, k] · (mv[o] · (1/127))`, and the layer is the linear map
  `y[b, s, o] = Σ_k x[b, s, k] · W[o, k]` (the contraction runs over the 4096 input features).
  Nothing here mentions a program: the two sides are each shown to be `linear` in their own modules.
-/
import Idealize.ShloMosaic.PureOps.Ideal
import Idealize.ShloMosaic.Lib.ValueIdx

noncomputable section

namespace Cert.DequantLinear

open Idealize.ShloMosaic Idealize.ShloMosaic.ValueIdx

/-- The float `127.0` denotes the real number 127. -/
theorem ofBits_127 : Ideal.ofBits .f32 0x42FE0000#32 = ((127 : ℝ) : EReal) := by
  simp [Ideal.ofBits, Ideal.ieee, -EReal.coe_mul]; norm_num

/-- Dividing an extended real by 127 is multiplying it by 1/127 (127 is neither zero nor infinite, so this
    holds at the infinities too). -/
theorem div_127 (s : EReal) : Ideal.div s (Ideal.ofBits .f32 0x42FE0000#32) = s * ((1 / 127 : ℝ) : EReal) := by
  rw [ofBits_127]
  exact Ideal.div_coe (by norm_num : (127 : ℝ) ≠ 0) s

/-- The dequantized weight `W[o, k] = wq[o, k] · (mv[o] · (1/127))`: the stored integer, read as a real,
    times the row's scale. -/
def weight (wq : (⟨⟨2, ![11008, 4096]⟩, .i32⟩ : BufTy).Contents (Elt Ideal))
    (mv : (⟨⟨1, ![11008]⟩, .f32⟩ : BufTy).Contents (Elt Ideal)) (o : Fin 11008) (k : Fin 4096) : EReal :=
  FloatOps.sitofp (F := Ideal) .f32 (wq (ix2 o k)) * (mv (ix1 o) * ((1 / 127 : ℝ) : EReal))

/-- One entry of the layer's output: `y[b, s, o] = Σ_k x[b, s, k] · W[o, k]`. -/
def linearAt (x : (⟨⟨3, ![4, 2048, 4096]⟩, .f32⟩ : BufTy).Contents (Elt Ideal))
    (wq : (⟨⟨2, ![11008, 4096]⟩, .i32⟩ : BufTy).Contents (Elt Ideal))
    (mv : (⟨⟨1, ![11008]⟩, .f32⟩ : BufTy).Contents (Elt Ideal)) (b : Fin 4) (s : Fin 2048) (o : Fin 11008) : EReal :=
  ∑ k : Fin 4096, x (ix3 b s k) * weight wq mv o k

/-- The whole output array, index by index. -/
def linear (x : (⟨⟨3, ![4, 2048, 4096]⟩, .f32⟩ : BufTy).Contents (Elt Ideal))
    (wq : (⟨⟨2, ![11008, 4096]⟩, .i32⟩ : BufTy).Contents (Elt Ideal))
    (mv : (⟨⟨1, ![11008]⟩, .f32⟩ : BufTy).Contents (Elt Ideal)) :
    (⟨⟨3, ![4, 2048, 11008]⟩, .f32⟩ : BufTy).Contents (Elt Ideal) :=
  fun i => linearAt x wq mv (i 0) (i 1) (i 2)

end Cert.DequantLinear

end
-- ==== Proof.RefLinear.lean ====
/-
  The reference computes `linear`.

  The reference converts the integer weights to reals, divides each row's scale by 127, broadcasts the
  quotient along the row, multiplies, and contracts the 4096 input features of `x` against the result.
  Read at an output index `(b, s, o)` this is `Σ_k x[b, s, k] · (wq[o, k] · (mv[o] / 127))`, and a quotient by
  127 is the product with 1/127 on every extended real — so it is `linear` entry by entry.
-/
import proofs.«117571_j18502719111670_1_alg».proof.Proof.Gen.ReferenceIdeal.Read
import proofs.«117571_j18502719111670_1_alg».proof.Proof.DequantLinear

noncomputable section

namespace Cert.RefLinear

open Idealize.ShloMosaic Idealize.ShloMosaic.ValueIdx
open Cert.ReferenceIdeal Cert.ReferenceIdeal.Read Cert.DequantLinear

/-- The left operand of the contraction at output index `i` and feature `k` is `x[b, s, k]`. -/
theorem lidx_eq (b : Fin 4) (s : Fin 2048) (o : Fin 11008) (k : Fin 4096) : lidx_main_v6 (ix3 b s o) k = ix3 b s k :=
  funext fun a => Fin.ext (by match a with | ⟨0, _⟩ => rfl | ⟨1, _⟩ => rfl | ⟨2, _⟩ => rfl)

/-- The right operand is the weight's entry `[o, k]`. -/
theorem ridx_eq (b : Fin 4) (s : Fin 2048) (o : Fin 11008) (k : Fin 4096) : ridx_main_v6 (ix3 b s o) k = ix2 o k :=
  funext fun a => Fin.ext (by match a with | ⟨0, _⟩ => rfl | ⟨1, _⟩ => rfl)

/-- The broadcast scale at weight entry `[o, k]` is row `o`'s scale. -/
theorem scale_idx_eq (o : Fin 11008) (k : Fin 4096) : idx_main_v3 (idx_main_v4 (ix2 o k)) = ix1 o :=
  funext fun a => Fin.ext (by match a with | ⟨0, _⟩ => rfl)

/-- The reference's weight entry is the dequantized weight. -/
theorem weight_eq (wq : (⟨S11008x4096, .i32⟩ : BufTy).Contents (Elt Ideal)) (mv : (⟨S11008, .f32⟩ : BufTy).Contents (Elt Ideal))
    (o : Fin 11008) (k : Fin 4096) :
    val_main_v5 (F := Ideal) wq mv (ix2 o k) = weight wq mv o k := by
  rw [val_main_v5_apply, val_main_v0_apply, val_main_v4_apply, val_main_v3_apply, scale_idx_eq, val_main_v2_apply,
    val_main_v1_apply, val_main_cst_apply]
  simp only [Ideal.mulf_def, Ideal.hostDivf_def, Ideal.ofBits_def, div_127]
  rfl

/-- The reference's result is `linear` of its arguments. -/
theorem ref_eq_linear (x : (⟨S4x2048x4096, .f32⟩ : BufTy).Contents (Elt Ideal)) (wq : (⟨S11008x4096, .i32⟩ : BufTy).Contents (Elt Ideal))
    (mv : (⟨S11008, .f32⟩ : BufTy).Contents (Elt Ideal)) :
    val_main_v6 (F := Ideal) x wq mv = linear x wq mv := by
  funext i
  obtain ⟨b, s, o, rfl⟩ : ∃ (b : Fin 4) (s : Fin 2048) (o : Fin 11008), i = ix3 b s o := ⟨i 0, i 1, i 2, eq_ix3 i⟩
  rw [val_main_v6_apply]
  show _ = ∑ k : Fin 4096, x (ix3 b s k) * weight wq mv o k
  refine Finset.sum_congr rfl fun k _ => ?_
  rw [lidx_eq, ridx_eq, weight_eq]

end Cert.RefLinear

end
-- ==== Proof.RegionEntry.lean ====
/-
  What the kernel region finds in its operand arrays.

  Before the region the program flattens `x` from [4, 2048, 4096] to the 8192 × 4096 matrix whose row
  `b · 2048 + s` is `x[b, s, ·]`, and stands the 11008 row scales up as an 11008 × 1 column. Both are
  reshapes: the same numbers in row-major order. The integer weights reach the region untouched.
-/
import proofs.«117571_j18502719111670_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.RegionEntry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened activations are the reshape of `x`. -/
theorem x_matrix (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The scale column is the reshape of the scale vector. -/
theorem scale_column (c : Dev nD) :
    (V m c main_v1 : S11008x1.Idx → EReal)
      = shapeCast S11008x1 (m ((c : Thread nD τ).loc main_arg2)) shapeCasts_S11008_S11008x1 := by
  show StableHlo.after hostOps0 (fun b => m (c, b)) (Proc.devRef .tc main_v1) = _
  after_results
  rfl

/-- Row `b · 2048 + s` of the flattened activations is `x[b, s, ·]`. -/
theorem x_matrix_apply (c : Dev nD) (b : Fin 4) (s : Fin 2048) (k : Fin 4096) (r : Fin 8192) (hr : r.val = b.val * 2048 + s.val) :
    (V m c main_v0 : S8192x4096.Idx → EReal) (ix2 r k) = m ((c : Thread nD τ).loc main_arg0) (ix3 b s k) := by
  rw [x_matrix]
  refine shapeCast_apply _ _ (ix2 r k) (ix3 b s k) ?_
  rw [Shape.rowMajor_val_three, Shape.rowMajor_val_two]
  show (b.val * 2048 + s.val) * 4096 + k.val = r.val * 4096 + k.val
  rw [hr]

/-- Entry `(o, 0)` of the scale column is the scale of row `o`. -/
theorem scale_column_apply (c : Dev nD) (o : Fin 11008) :
    (V m c main_v1 : S11008x1.Idx → EReal) (ix2 o (0 : Fin 1)) = m ((c : Thread nD τ).loc main_arg2) (ix1 o) := by
  rw [scale_column]
  refine shapeCast_apply _ _ (ix2 o (0 : Fin 1)) (ix1 o) ?_
  rw [Shape.rowMajor_val_one, Shape.rowMajor_val_two]
  show o.val = o.val * 1 + 0
  omega

end Cert.RegionEntry

end
-- ==== Proof.TileProduct.lean ====
/-
  One tile of the kernel's output, entry by entry.

  At a grid point the body holds a 512 × 4096 block of `x`, a 256 × 4096 block of the integer weights and the
  256 × 1 column of their row scales. It scales each weight row by `scale · (1/127)`, and multiplies the `x`
  block by the transposed weight block into a zero accumulator. Over the extended reals the changes of
  float format are the identity and the product into zero is the plain sum, so entry `(p, q)` of the tile is
  `Σ_k x[p, k] · (wq[q, k] · (scale[q] · (1/127)))`.
-/
import proofs.«117571_j18502719111670_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

noncomputable section

namespace Cert.TileProduct

open Idealize.ShloMosaic Idealize.ShloMosaic.ValueIdx
open Cert.KernelIdeal Cert.KernelIdeal.Gen

/-- The kernel's reciprocal constant denotes the rational 1/127. -/
theorem inv_127 : Named.named (F := Ideal) Cert.KernelIdeal.κ "inv_127" (φ := .f32) 0x3C010204#32 = ((1 / 127 : ℝ) : EReal) :=
  IdealRules.named_const.ideal_named_scalar _ _ _ _ rfl

/-- The tile product's dimension record: both operands contract their second axis. -/
abbrev tileDot : DotDims S512x4096 S256x4096 S512x256 := dot_S512x4096_S256x4096_S512x256_1_1_0_0_n_n

/-- The left operand's row is the output's row. -/
theorem lhs_row (j : S512x256.Idx) (r : tileDot.contr.Idx) : (tileDot.lhsIdx j r 0).val = (j 0).val := by
  unfold DotDims.lhsIdx
  rw [dif_neg (show ¬(0 : Fin S512x4096.rank) ∈ tileDot.lhsBatch by decide), dif_pos (show (0 : Fin S512x4096.rank) ∈ tileDot.lhsNonContracting by decide)]
  rfl
/-- The left operand's column is the contracted feature. -/
theorem lhs_col (j : S512x256.Idx) (r : tileDot.contr.Idx) : (tileDot.lhsIdx j r 1).val = (r ⟨0, by decide⟩).val :=
  tileDot.lhsIdx_val_of_single rfl j r
/-- The right operand's row is the output's column. -/
theorem rhs_row (j : S512x256.Idx) (r : tileDot.contr.Idx) : (tileDot.rhsIdx j r 0).val = (j 1).val := by
  unfold DotDims.rhsIdx
  rw [dif_neg (show ¬(0 : Fin S256x4096.rank) ∈ tileDot.rhsBatch by decide), dif_pos (show (0 : Fin S256x4096.rank) ∈ tileDot.rhsNonContracting by decide)]
  rfl
/-- The right operand's column is the contracted feature. -/
theorem rhs_col (j : S512x256.Idx) (r : tileDot.contr.Idx) : (tileDot.rhsIdx j r 1).val = (r ⟨0, by decide⟩).val :=
  tileDot.rhsIdx_val_of_single rfl j r

/-- The scaled weight block at `(q, k)`: the integer read as a real, times the row's scale times 1/127. The
    scale column is broadcast along the row, so entry `(q, k)` reads the column at `(q, 0)`. -/
theorem scaled_weight_apply (sc : Vec Ideal S256x1 .f32) (wq : Vec Ideal S256x4096 .i32) (q : Fin 256) (k : Fin 4096) :
    (mulf (sitofp (F := Ideal) .f32 wq) (broadcastTo S256x4096 (mulf (shapeCast S256x1 sc shapeCasts_S256x1_S256x1)
        (broadcast S256x1 (Named.named (F := Ideal) κ "inv_127" (φ := .f32) 0x3C010204#32))) broadcasts_S256x1_S256x4096) : FVec Ideal S256x4096 .f32) (ix2 q k)
      = FloatOps.sitofp (F := Ideal) .f32 (wq (ix2 q k)) * (sc (ix2 q (0 : Fin 1)) * ((1 / 127 : ℝ) : EReal)) := by
  rw [mulf_apply, sitofp_apply,
    broadcastTo_apply _ broadcasts_S256x1_S256x4096 (ix2 q k) (ix2 q (0 : Fin 1)) (fun a => match a with
      | ⟨0, _⟩ => by show q.val = if (256 : Nat) = 1 then 0 else q.val; rw [if_neg (by decide)]
      | ⟨1, _⟩ => by show 0 = if (1 : Nat) = 1 then 0 else k.val; rw [if_pos rfl]),
    mulf_apply, shapeCast_self, broadcast_apply, inv_127]

/-- Entry `(p, q)` of the tile: the sum over the 4096 features of `x[p, k]` times the scaled weight `[q, k]`. -/
theorem tile_apply (x0 : Vec Ideal S512x4096 .f32) (sc : Vec Ideal S256x1 .f32) (wq : Vec Ideal S256x4096 .i32) (p : Fin 512) (q : Fin 256) :
    k0_pay1 (F := Ideal) x0 sc wq (ix2 p q)
      = ∑ k : Fin 4096, x0 (ix2 p k) * (FloatOps.sitofp (F := Ideal) .f32 (wq (ix2 q k)) * (sc (ix2 q (0 : Fin 1)) * ((1 / 127 : ℝ) : EReal))) := by
  unfold k0_pay1
  refine (Ideal.matmul_constant_zero_apply tileDot none _ _ (ix2 p q)).trans ?_
  rw [← Equiv.sum_comp (contrEquiv1 tileDot 4096 rfl rfl).symm]
  refine Finset.sum_congr rfl fun k _ => ?_
  have hk := contrEquiv1_symm_val tileDot 4096 rfl rfl k
  have el : tileDot.lhsIdx (ix2 p q) ((contrEquiv1 tileDot 4096 rfl rfl).symm k) = ix2 p k := funext fun a => Fin.ext (by
    match a with
    | ⟨0, _⟩ => exact lhs_row _ _
    | ⟨1, _⟩ => exact (lhs_col _ _).trans hk)
  have er : tileDot.rhsIdx (ix2 p q) ((contrEquiv1 tileDot 4096 rfl rfl).symm k) = ix2 q k := funext fun a => Fin.ext (by
    match a with
    | ⟨0, _⟩ => exact rhs_row _ _
    | ⟨1, _⟩ => exact (rhs_col _ _).trans hk)
  rw [el, er, truncf_apply, truncf_apply, shapeCast_self, scaled_weight_apply]

end Cert.TileProduct

end
-- ==== Proof.KernelTiles.lean ====
/-
  From the kernel's tiles to the whole product matrix.

  The grid has 16 × 43 points; point `(i, j)` reads rows `512·i … 512·i + 511` of the flattened activations,
  rows `256·j … 256·j + 255` of the weights and of the scale column, and writes the 512 × 256 tile `(i, j)` of
  the 8192 × 11008 output. Each entry of that tile is the contraction of an activation row with a scaled
  weight row (`TileProduct.tile_apply`), and the rows a tile reads are exactly the rows its position in the
  output names — so every tile is a block of ONE matrix, `product`, and the tiles cover the output.
-/
import proofs.«117571_j18502719111670_1_alg».proof.Proof.Gen.KernelIdeal.Frame
import proofs.«117571_j18502719111670_1_alg».proof.Proof.TileProduct
import Idealize.ShloMosaic.Lib.Pipeline.Value
import Idealize.ShloMosaic.Lib.ValueIdx
import Idealize.ShloMosaic.Lib.Tactic

set_option maxRecDepth 16384

noncomputable section

namespace Cert.KernelTiles

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Entry `(r, o)` of the product of the activation matrix with the transposed, scaled weight matrix. -/
def productAt (x : S8192x4096.Idx → EReal) (wq : S11008x4096.Idx → Elt Ideal .i32) (sc : S11008x1.Idx → EReal)
    (r : Fin 8192) (o : Fin 11008) : EReal :=
  ∑ k : Fin 4096, x (ix2 r k) * (FloatOps.sitofp (F := Ideal) .f32 (wq (ix2 o k)) * (sc (ix2 o (0 : Fin 1)) * ((1 / 127 : ℝ) : EReal)))

/-- The product matrix, index by index. -/
def product (x : S8192x4096.Idx → EReal) (wq : S11008x4096.Idx → Elt Ideal .i32) (sc : S11008x1.Idx → EReal) :
    S8192x11008.Idx → EReal :=
  fun i => productAt x wq sc (i 0) (i 1)

theorem hz : (![0, 0] : Fin 2 → Nat) = fun _ => 0 := funext fun a => by fin_cases a <;> rfl

/-- Where each window's block sits at grid point `t`, the points counted row by row over the 16 × 43 grid:
    the output tile is `(t / 43, t % 43)`, the activation block is row block `t / 43`, the weight and scale
    blocks are row block `t % 43`. Decided over the 688 points. -/
theorem tile_position : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0 :=
  (by decide +kernel : ∀ t : Fin grid0.N, _)

/-- The activation block at point `t` is rows `512 · (t / 43) + p` of the activation matrix. -/
theorem x_block_apply (c : Dev nD) (t : Fin cfg0.N) (p : Fin 512) (k : Fin 4096) (r : Fin 8192)
    (hr : r.val = t.val / 43 * 512 + p.val) :
    (iblk m c 0 t : Vec Ideal S512x4096 .f32) (ix2 p k) = (V m c main_v0 : S8192x4096.Idx → EReal) (ix2 r k) := by
  obtain ⟨-, -, e00, e01, -, -, -, -⟩ := tile_position t
  show V m c main_v0 (((cfg0.win 0).blk t).view.emb (ix2 p k)) = _
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  rw [h]

/-- The weight block at point `t` is rows `256 · (t % 43) + q` of the weight matrix. -/
theorem w_block_apply (c : Dev nD) (t : Fin cfg0.N) (q : Fin 256) (k : Fin 4096) (o : Fin 11008)
    (ho : o.val = t.val % 43 * 256 + q.val) :
    (iblk m c 1 t : Vec Ideal S256x4096 .i32) (ix2 q k) = (V m c main_arg1 : S11008x4096.Idx → Elt Ideal .i32) (ix2 o k) := by
  obtain ⟨-, -, -, -, e10, e11, -, -⟩ := tile_position t
  show V m c main_arg1 (((cfg0.win 1).blk t).view.emb (ix2 q k)) = _
  have h : ((cfg0.win 1).blk t).view.emb (ix2 q k) = ix2 o k := by
    funext a; apply Fin.ext
    match a with
    | ⟨0, _⟩ => show win0_1.index t (0 : Fin 2) * 256 + 1 * q.val = o.val; omega
    | ⟨1, _⟩ => show win0_1.index t (1 : Fin 2) * 4096 + 1 * k.val = k.val; omega
  rw [h]

/-- The scale block at point `t` is rows `256 · (t % 43) + q` of the scale column. -/
theorem s_block_apply (c : Dev nD) (t : Fin cfg0.N) (q : Fin 256) (o : Fin 11008)
    (ho : o.val = t.val % 43 * 256 + q.val) :
    (iblk m c 2 t : Vec Ideal S256x1 .f32) (ix2 q (0 : Fin 1)) = (V m c main_v1 : S11008x1.Idx → EReal) (ix2 o (0 : Fin 1)) := by
  obtain ⟨-, -, -, -, -, -, e20, e21⟩ := tile_position t
  show V m c main_v1 (((cfg0.win 2).blk t).view.emb (ix2 q (0 : Fin 1))) = _
  have h : ((cfg0.win 2).blk t).view.emb (ix2 q (0 : Fin 1)) = ix2 o (0 : Fin 1) := by
    funext a; apply Fin.ext
    match a with
    | ⟨0, _⟩ => show win0_2.index t (0 : Fin 2) * 256 + 1 * q.val = o.val; omega
    | ⟨1, _⟩ => show win0_2.index t (1 : Fin 2) * 1 + 1 * 0 = 0; omega
  rw [h]

/-- WHAT POINT `t` WRITES BACK is tile `t` of the product matrix of the arrays the region finds. -/
theorem flushed_eq (c : Dev nD) (t : Fin cfg0.N) :
    (dats m 0 c).flushed 3 t
      = ((cfg0.win 3).blk t).view.read (Elt Ideal) (product (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S512x4096) hz, View.ld_unit_zero (S := S256x1) hz, View.ld_unit_zero (S := S256x4096) hz]
  obtain ⟨e30, e31, -, -, -, -, -, -⟩ := tile_position t
  have ht : t.val < 688 := lt_of_lt_of_eq t.isLt N_0
  funext j
  obtain ⟨p, q, rfl⟩ : ∃ (p : Fin 512) (q : Fin 256), j = ix2 p q := ⟨j 0, j 1, eq_ix2 j⟩
  obtain ⟨r, hr⟩ : ∃ r : Fin 8192, r.val = t.val / 43 * 512 + p.val := ⟨⟨t.val / 43 * 512 + p.val, by have := p.isLt; omega⟩, rfl⟩
  obtain ⟨o, ho⟩ : ∃ o : Fin 11008, o.val = t.val % 43 * 256 + q.val := ⟨⟨t.val % 43 * 256 + q.val, by have := q.isLt; omega⟩, rfl⟩
  have hi : ((cfg0.win 3).blk t).view.emb (ix2 p q) = ix2 r o := by
    funext a; apply Fin.ext
    match a with
    | ⟨0, _⟩ => show win0_3.index t (0 : Fin 2) * 512 + 1 * p.val = r.val; omega
    | ⟨1, _⟩ => show win0_3.index t (1 : Fin 2) * 256 + 1 * q.val = o.val; omega
  show k0_pay1 (F := Ideal) (iblk m c 0 t) (iblk m c 2 t) (iblk m c 1 t) (ix2 p q)
    = product (V m c main_v0) (V m c main_arg1) (V m c main_v1) (((cfg0.win 3).blk t).view.emb (ix2 p q))
  rw [hi]
  show _ = productAt (V m c main_v0) (V m c main_arg1) (V m c main_v1) r o
  unfold productAt
  refine (Cert.TileProduct.tile_apply (iblk m c 0 t) (iblk m c 2 t) (iblk m c 1 t) p q).trans ?_
  refine Finset.sum_congr rfl fun k _ => ?_
  rw [x_block_apply m c t p k r hr, w_block_apply m c t q k o ho, s_block_apply m c t q o ho]

/-- An index of the output is in point `t`'s tile iff each coordinate is in the tile's range on its axis. -/
theorem mem_tile (t : Fin cfg0.N) (i : S8192x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v2).slice (win0_3.rect t)).set ↔ _
  rw [View.set_slice_whole, Rect.mem_set_unit]
  exact Iff.rfl

/-- Every entry `(r, o)` of the output lies in the tile of point `(r / 512) · 43 + o / 256`. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ : ∃ t : Fin cfg0.N, t.val = (i 0).val / 512 * 43 + (i 1).val / 256 :=
    ⟨⟨(i 0).val / 512 * 43 + (i 1).val / 256, by rw [show cfg0.N = 688 from N_0]; omega⟩, rfl⟩
  obtain ⟨e30, e31, -, -, -, -, -, -⟩ := tile_position t
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE OUTPUT MATRIX after the region is the product matrix of the arrays the region finds. -/
theorem output_matrix (c : Dev nD) :
    (dats m 0 c).arrAt 3 cfg0.N = product (V m c main_v0) (V m c main_arg1) (V m c main_v1) :=
  (dats m 0 c).arrAt_eq_of_cover 3 _ (fun t _ => flushed_eq m c t) covered

end Cert.KernelTiles

end
-- ==== Proof.KernelLinear.lean ====
/-
  The kernel computes `linear`.

  After the region the program folds the 8192 × 11008 product matrix back to [4, 2048, 11008]: entry
  `(b, s, o)` of the result is entry `(b · 2048 + s, o)` of the matrix. That entry contracts row
  `b · 2048 + s` of the flattened activations — which is `x[b, s, ·]` — with weight row `o` scaled by
  `scale[o] · (1/127)`: the layer's output `linear` at `(b, s, o)`.
-/
import proofs.«117571_j18502719111670_1_alg».proof.Proof.Gen.KernelIdeal.Frame
import proofs.«117571_j18502719111670_1_alg».proof.Proof.DequantLinear
import proofs.«117571_j18502719111670_1_alg».proof.Proof.RegionEntry
import proofs.«117571_j18502719111670_1_alg».proof.Proof.KernelTiles
import Idealize.ShloMosaic.Lib.Pipeline.Value
import Idealize.ShloMosaic.Lib.ValueIdx
import Idealize.ShloMosaic.Lib.StableHlo.Run
import Idealize.ShloMosaic.Lib.Tactic

noncomputable section

namespace Cert.KernelLinear

open Idealize.ShloMosaic Idealize.ShloMosaic.TcCoe Idealize.ShloMosaic.ValueIdx Idealize.SL.Sem
open Idealize.ShloMosaic.Pipeline (Dat)
open Cert.KernelIdeal Cert.KernelIdeal.Gen Cert.DequantLinear

variable (m : (ℓ : Loc nD τ sig) → Buf (Elt Ideal) ℓ) (ρ : Dev nD → PrngReg)

/-- The program's result is the reshape of the output matrix the region leaves. -/
theorem result_reshape (c : Dev nD) :
    Pipeline.afterTail₀ cfgs (dats m) 0 (V0 m) [hostOps1] c main_v3
      = shapeCast S4x2048x11008 ((dats m 0 c).arrAt 3 cfg0.N) shapeCasts_S8192x11008_S4x2048x11008 := by
  unfold Pipeline.afterTail₀
  show StableHlo.after hostOps1 _ (Proc.devRef .tc main_v3) = _
  after_results
  have h : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c _ _ 3
  rw [h]
  rfl

/-- Entry `(b, s, o)` of the program's result is the layer's output there. -/
theorem result_apply (c : Dev nD) (b : Fin 4) (s : Fin 2048) (o : Fin 11008) :
    (Pipeline.afterTail₀ cfgs (dats m) 0 (V0 m) [hostOps1] c main_v3 : S4x2048x11008.Idx → EReal) (ix3 b s o)
      = linearAt (m ((c : Thread nD τ).loc main_arg0)) (m ((c : Thread nD τ).loc main_arg1)) (m ((c : Thread nD τ).loc main_arg2)) b s o := by
  obtain ⟨r, hr⟩ : ∃ r : Fin 8192, r.val = b.val * 2048 + s.val :=
    ⟨⟨b.val * 2048 + s.val, by have := b.isLt; have := s.isLt; omega⟩, rfl⟩
  rw [result_reshape, Cert.KernelTiles.output_matrix]
  refine (shapeCast_apply _ _ (ix3 b s o) (ix2 r o) ?_).trans ?_
  · rw [Shape.rowMajor_val_two, Shape.rowMajor_val_three]
    show r.val * 11008 + o.val = (b.val * 2048 + s.val) * 11008 + o.val
    rw [hr]
  · show Cert.KernelTiles.productAt (V m c main_v0) (V m c main_arg1) (V m c main_v1) r o = _
    unfold Cert.KernelTiles.productAt linearAt weight
    refine Finset.sum_congr rfl fun k _ => ?_
    rw [Cert.RegionEntry.x_matrix_apply m c b s k r hr, Cert.RegionEntry.scale_column_apply m c o, V_main_arg1]

/-- The program's result array is `linear` of its three arguments. -/
theorem result_eq (c : Dev nD) :
    Pipeline.afterTail₀ cfgs (dats m) 0 (V0 m) [hostOps1] c main_v3
      = linear (m ((c : Thread nD τ).loc main_arg0)) (m ((c : Thread nD τ).loc main_arg1)) (m ((c : Thread nD τ).loc main_arg2)) := by
  funext i
  obtain ⟨b, s, o, rfl⟩ : ∃ (b : Fin 4) (s : Fin 2048) (o : Fin 11008), i = ix3 b s o := ⟨i 0, i 1, i 2, eq_ix3 i⟩
  exact result_apply m c b s o

/-- The kernel program's run, read: every weakly fair execution terminates with the result array at `linear` of the
    arguments and the arguments unchanged. -/
theorem run : θ_run defs (onTc (τ := τ) (main (F := Ideal))) ⟨m, fun _ => 0, ρ⟩ fun r => ∀ c : Dev nD,
      r.2.mem ((c.tc : Thread nD τ).loc main_v3)
        = linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelLinear

end
-- ==== Proof.lean ====
/-
  An integer-quantized linear layer against its plain reference, over the extended reals.

  Both programs compute `y[b, s, o] = Σ_k x[b, s, k] · W[o, k]` with the dequantized weight
  `W[o, k] = wq[o, k] · (mv[o] · (1/127))` (Proof/DequantLinear.lean states this function once).

  * The reference divides each row scale by 127 and contracts `x` against the scaled weights in one product; a
    quotient by 127 is the product with 1/127 on every extended real (Proof/RefLinear.lean).
  * The kernel flattens `x` to an 8192 × 4096 matrix, computes the product tile by tile over a 16 × 43 grid — each
    512 × 256 tile the product of an activation block with a scaled weight block, the contraction whole inside the
    tile (Proof/TileProduct.lean) —, and folds the 8192 × 11008 matrix back to [4, 2048, 11008]. The tiles are
    blocks of one matrix and cover it (Proof/KernelTiles.lean); the two reshapes only renumber entries
    (Proof/RegionEntry.lean, Proof/KernelLinear.lean).

  The two sides agree term by term, so no finiteness of the inputs is used: the sums are the same sums even
  where an input is infinite. The kernel multiplies by a constant that stands for the rational 1/127; that reading is
  the one sanctioned rewrite between the kernel as written and its idealization (`preserves`).
-/
import proofs.«117571_j18502719111670_1_alg».proof.Defs
import proofs.«117571_j18502719111670_1_alg».proof.Proof.Gen.Kernel
import proofs.«117571_j18502719111670_1_alg».proof.Proof.Gen.Kernel.Frame
import proofs.«117571_j18502719111670_1_alg».proof.Proof.Gen.KernelIdeal
import proofs.«117571_j18502719111670_1_alg».proof.Proof.Gen.KernelIdeal.Frame
import proofs.«117571_j18502719111670_1_alg».proof.Proof.Gen.ReferenceIdeal
import proofs.«117571_j18502719111670_1_alg».proof.Proof.Gen.ReferenceIdeal.Run
import proofs.«117571_j18502719111670_1_alg».proof.Proof.Gen.ReferenceIdeal.Read
import proofs.«117571_j18502719111670_1_alg».proof.Proof.Gen.Pre_finite_inputs
import proofs.«117571_j18502719111670_1_alg».proof.Proof.DequantLinear
import proofs.«117571_j18502719111670_1_alg».proof.Proof.RefLinear
import proofs.«117571_j18502719111670_1_alg».proof.Proof.KernelLinear

noncomputable section

namespace Cert.Proof

open Idealize.ShloMosaic Idealize.ShloMosaic.TcCoe Idealize.SL.Sem

/-- The kernel as written runs to completion and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's reciprocal constant is read as the rational 1/127. -/
theorem preserves : Cert.preserves_Kernel_KernelIdeal :=
  IdealRules.named_const.statement Cert.KernelIdeal.κ "inv_127" .f32 0x3C010204#32 ((1 / 127 : ℝ) : EReal) rfl

/-- From memories that agree on `x`, the integer weights and the row scales, both programs end with the layer's
    output `linear` of those arguments in their result arrays. -/
theorem algebraic : Cert.algebraic_KernelIdeal_ReferenceIdeal := by
  intro m ρ m' ρ' _ hagree
  refine ⟨fun c => Cert.DequantLinear.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefLinear.ref_eq_linear, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
